-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S10x1 : Shape := ⟨2, ![10, 1]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S10x1 : S_.BroadcastsInDim S10x1 (![] : Fin 0 → Fin S10x1.rank)
  reducesTo_S10x1_S_d0_1 : S10x1.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x10 .f32) (main_arg8 : FVec F S1 .f32) (main_v33 : IVec S_ 1) : IVec S_ 1 :=
  let main_v34 : FVec F S1x10 .f32 := Host.absf main_arg7
  let main_cst_12 : FVec F S_ .f32 := constant S_ .f32 0x7F800000#32
  let main_v35 : FVec F S1x10 .f32 := broadcastInDim S1x10 ![] bcast_S_S1x10 main_cst_12
  let main_v36 : IVec S1x10 1 := cmpf .olt main_v34 main_v35
  let main_c_13 : IVec S_ 1 := constantI S_ 1 1#1
  let main_v37 : IVec S_ 1 := (fun x v => Host.reduce IntOp.andi x v reducesTo_S1x10_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S10 .f32) (main_arg5 : FVec F S10x10 .f32) (main_arg6 : FVec F S10 .f32) (main_arg7 : FVec F S1x10 .f32) (main_arg8 : FVec F S1 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_v33

def fn {F : FTy → Type} [FloatOps F] (main_arg0 : FVec F S4000000x1 .f32) (main_arg1 : FVec F S10x1 .f32) (main_arg2 : FVec F S10 .f32) (main_arg3 : FVec F S10x10 .f32) (main_arg4 : FVec F S10 .f32) (main_arg5 : FVec F S10x10 .f32) (main_arg6 : FVec F S10 .f32) (main_arg7 : FVec F S1x10 .f32) (main_arg8 : FVec F S1 .f32) : IVec S_ 1 :=
  let main_v0 : FVec F S4000000x1 .f32 := Host.absf main_arg0
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S10x1 .f32 := Host.absf main_arg1
  let main_cst_0 : FVec F S_ .f32 := constant S_ .f32 0x7F800000#32
  let main_v5 : FVec F S10x1 .f32 := broadcastInDim S10x1 ![] bcast_S_S10x1 main_cst_0
  let main_v6 : IVec S10x1 1 := cmpf .olt main_v4 main_v5
  let main_c_1 : IVec S_ 1 := constantI S_ 1 1#1
  let main_v7 : IVec S_ 1 := (fun x v => Host.reduce IntOp.andi x v reducesTo_S10x1_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_arg5 main_arg6 main_arg7 main_arg8 main_v13 main_v16
-- ==== Kernel.lean ====
abbrev S4000000x1 : Shape := ⟨2, ![4000000, 1]⟩
abbrev S10x1 : Shape := ⟨2, ![10, 1]⟩
abbrev S10 : Shape := ⟨1, ![10]⟩
abbrev S10x10 : Shape := ⟨2, ![10, 10]⟩
abbrev S1x10 : Shape := ⟨2, ![1, 10]⟩
abbrev S1 : Shape := ⟨1, ![1]⟩
abbrev S1x1 : Shape := ⟨2, ![1, 1]⟩
abbrev S4000x1 : Shape := ⟨2, ![4000, 1]⟩
abbrev S4000x10 : Shape := ⟨2, ![4000, 10]⟩

abbrev nBuf : Space → Nat
  | .hbm => 14
  | .vmem => 12
  | .smem => 0
  | _ => 0

abbrev bufTy : (tb : Table) → Fin (tcTables nBuf tb) → BufTy
  | .hbm, ⟨0, _⟩ => ⟨S4000000x1, .f32⟩
  | .hbm, ⟨1, _⟩ => ⟨S10x1, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S1x10, .f32⟩
  | .hbm, ⟨8, _⟩ => ⟨S1, .f32⟩
  | .hbm, ⟨9, _⟩ => ⟨S1x10, .f32⟩
  | .hbm, ⟨10, _⟩ => ⟨S1x10, .f32⟩
  | .hbm, ⟨11, _⟩ => ⟨S1x10, .f32⟩
  | .hbm, ⟨12, _⟩ => ⟨S1x1, .f32⟩
  | .hbm, ⟨13, _⟩ => ⟨S4000000x1, .f32⟩
  | .local _ .vmem, ⟨0, _⟩ => ⟨S4000x1, .f32⟩
  | .local _ .vmem, ⟨1, _⟩ => ⟨S4000x1, .f32⟩
  | .local _ .vmem, ⟨2, _⟩ => ⟨S10x1, .f32⟩
  | .local _ .vmem, ⟨3, _⟩ => ⟨S1x10, .f32⟩
  | .local _ .vmem, ⟨4, _⟩ => ⟨S10x10, .f32⟩
  | .local _ .vmem, ⟨5, _⟩ => ⟨S1x10, .f32⟩
  | .local _ .vmem, ⟨6, _⟩ => ⟨S10x10, .f32⟩
  | .local _ .vmem, ⟨7, _⟩ => ⟨S1x10, .f32⟩
  | .local _ .vmem, ⟨8, _⟩ => ⟨S1x10, .f32⟩
  | .local _ .vmem, ⟨9, _⟩ => ⟨S1x1, .f32⟩
  | .local _ .vmem, ⟨10, _⟩ => ⟨S4000x1, .f32⟩
  | .local _ .vmem, ⟨11, _⟩ => ⟨S4000x1, .f32⟩
  | _, _ => ⟨S4000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S10_S1x10 : S10.ShapeCasts S1x10
  shapeCasts_S1_S1x1 : S1.ShapeCasts S1x1
  inb_S4000x1_S4000x1_0_0 : ∀ a, (![0, 0] : Fin 2 → Nat) a + S4000x1.size a ≤ S4000x1.size a
  h_S4000x1 : 0 < S4000x1.numel
  bitsLt_bf16_f32 : FTy.bits .bf16 < FTy.bits .f32
  inb_S10x1_S10x1_0_0 : ∀ a, (![0, 0] : Fin 2 → Nat) a + S10x1.size a ≤ S10x1.size a
  h_S10x1 : 0 < S10x1.numel
  transposes_S10x1_p1_0_S1x10 : S10x1.Transposes [1, 0] S1x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  inb_S10x10_S10x10_0_0 : ∀ a, (![0, 0] : Fin 2 → Nat) a + S10x10.size a ≤ S10x10.size a
  h_S10x10 : 0 < S10x10.numel
  transposes_S10x10_p1_0_S10x10 : S10x10.Transposes [1, 0] S10x10
  transposes_S1x10_p1_0_S10x1 : S1x10.Transposes [1, 0] S10x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  dot_S4000x1_S1x10_S4000x10_1_0_0_1_n_n_wf : DotDims.WF S4000x1 S1x10 S4000x10 [1] [0] [0] [1] [] []
  dot_S4000x10_S10x10_S4000x10_1_0_0_1_n_n_wf : DotDims.WF S4000x10 S10x10 S4000x10 [1] [0] [0] [1] [] []
  dot_S4000x10_S10x1_S4000x1_1_0_0_1_n_n_wf : DotDims.WF S4000x10 S10x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S4000000x1.size a
  hwx0_0 : ∀ i : grid0.Coords, EltTy.bits .f32 = 32 ∨ (Rect.block (s := S4000000x1) S4000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1.size a ≤ S10x1.size a
  hwx0_1 : ∀ i : grid0.Coords, EltTy.bits .f32 = 32 ∨ (Rect.block (s := S10x1) S10x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S4000000x1.size a
  hwx0_9 : ∀ i : grid0.Coords, EltTy.bits .f32 = 32 ∨ (Rect.block (s := S4000000x1) S4000x1.size (cc0_transform_9 i) (hinb0_9 i)).WholeWords (EltTy.packing .f32)

variable [Facts₀]

def dot_S4000x1_S1x10_S4000x10_1_0_0_1_n_n : DotDims S4000x1 S1x10 S4000x10 where
  lhsContracting := [1]
  rhsContracting := [0]
  lhsNonContracting := [0]
  rhsNonContracting := [1]
  lhsBatch := []
  rhsBatch := []
  wf := dot_S4000x1_S1x10_S4000x10_1_0_0_1_n_n_wf
def dot_S4000x10_S10x10_S4000x10_1_0_0_1_n_n : DotDims S4000x10 S10x10 S4000x10 where
  lhsContracting := [1]
  rhsContracting := [0]
  lhsNonContracting := [0]
  rhsNonContracting := [1]
  lhsBatch := []
  rhsBatch := []
  wf := dot_S4000x10_S10x10_S4000x10_1_0_0_1_n_n_wf
def dot_S4000x10_S10x1_S4000x1_1_0_0_1_n_n : DotDims S4000x10 S10x1 S4000x1 where
  lhsContracting := [1]
  rhsContracting := [0]
  lhsNonContracting := [0]
  rhsNonContracting := [1]
  lhsBatch := []
  rhsBatch := []
  wf := dot_S4000x10_S10x1_S4000x1_1_0_0_1_n_n_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S10x1 : Shape := ⟨2, ![10, 1]⟩
abbrev S10 : Shape := ⟨1, ![10]⟩
abbrev S10x10 : Shape := ⟨2, ![10, 10]⟩
abbrev S1x10 : Shape := ⟨2, ![1, 10]⟩
abbrev S1 : Shape := ⟨1, ![1]⟩
abbrev S4000000x10 : Shape := ⟨2, ![4000000, 10]⟩
abbrev S_ : Shape := ⟨0, ![]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S4000000x1, .f32⟩
  | .hbm, ⟨1, _⟩ => ⟨S10x1, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S1x10, .f32⟩
  | .hbm, ⟨8, _⟩ => ⟨S1, .f32⟩
  | .hbm, ⟨9, _⟩ => ⟨S1x10, .f32⟩
  | .hbm, ⟨10, _⟩ => ⟨S4000000x10, .f32⟩
  | .hbm, ⟨11, _⟩ => ⟨S1x10, .f32⟩
  | .hbm, ⟨12, _⟩ => ⟨S4000000x10, .f32⟩
  | .hbm, ⟨13, _⟩ => ⟨S4000000x10, .f32⟩
  | .hbm, ⟨14, _⟩ => ⟨S_, .f32⟩
  | .hbm, ⟨15, _⟩ => ⟨S4000000x10, .f32⟩
  | .hbm, ⟨16, _⟩ => ⟨S4000000x10, .f32⟩
  | .hbm, ⟨17, _⟩ => ⟨S10x10, .f32⟩
  | .hbm, ⟨18, _⟩ => ⟨S4000000x10, .f32⟩
  | .hbm, ⟨19, _⟩ => ⟨S1x10, .f32⟩
  | .hbm, ⟨20, _⟩ => ⟨S4000000x10, .f32⟩
  | .hbm, ⟨21, _⟩ => ⟨S4000000x10, .f32⟩
  | .hbm, ⟨22, _⟩ => ⟨S_, .f32⟩
  | .hbm, ⟨23, _⟩ => ⟨S4000000x10, .f32⟩
  | .hbm, ⟨24, _⟩ => ⟨S4000000x10, .f32⟩
  | .hbm, ⟨25, _⟩ => ⟨S10x10, .f32⟩
  | .hbm, ⟨26, _⟩ => ⟨S4000000x10, .f32⟩
  | .hbm, ⟨27, _⟩ => ⟨S1x10, .f32⟩
  | .hbm, ⟨28, _⟩ => ⟨S4000000x10, .f32⟩
  | .hbm, ⟨29, _⟩ => ⟨S4000000x10, .f32⟩
  | .hbm, ⟨30, _⟩ => ⟨S_, .f32⟩
  | .hbm, ⟨31, _⟩ => ⟨S4000000x10, .f32⟩
  | .hbm, ⟨32, _⟩ => ⟨S4000000x10, .f32⟩
  | .hbm, ⟨33, _⟩ => ⟨S10x1, .f32⟩
  | .hbm, ⟨34, _⟩ => ⟨S4000000x1, .f32⟩
  | .hbm, ⟨35, _⟩ => ⟨S1x1, .f32⟩
  | .hbm, ⟨36, _⟩ => ⟨S4000000x1, .f32⟩
  | .hbm, ⟨37, _⟩ => ⟨S4000000x1, .f32⟩
  | _, _ => ⟨S4000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S10x1_S1x10_1_0 : S10x1.Transposes [1, 0] S1x10
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)
  bcast_S_S4000000x10 : S_.BroadcastsInDim S4000000x10 (![] : Fin 0 → Fin S4000000x10.rank)
  transposes_S10x10_S10x10_1_0 : S10x10.Transposes [1, 0] S10x10
  transposes_S1x10_S10x1_1_0 : S1x10.Transposes [1, 0] S10x1
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  dot_S4000000x1_S1x10_S4000000x10_1_0_0_1_n_n_wf : DotDims.WF S4000000x1 S1x10 S4000000x10 [1] [0] [0] [1] [] []
  dot_S4000000x10_S10x10_S4000000x10_1_0_0_1_n_n_wf : DotDims.WF S4000000x10 S10x10 S4000000x10 [1] [0] [0] [1] [] []
  dot_S4000000x10_S10x1_S4000000x1_1_0_0_1_n_n_wf : DotDims.WF S4000000x10 S10x1 S4000000x1 [1] [0] [0] [1] [] []

variable [Facts₀]

def dot_S4000000x1_S1x10_S4000000x10_1_0_0_1_n_n : DotDims S4000000x1 S1x10 S4000000x10 where
  lhsContracting := [1]
  rhsContracting := [0]
  lhsNonContracting := [0]
  rhsNonContracting := [1]
  lhsBatch := []
  rhsBatch := []
  wf := dot_S4000000x1_S1x10_S4000000x10_1_0_0_1_n_n_wf
def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf
def dot_S4000000x10_S10x1_S4000000x1_1_0_0_1_n_n : DotDims S4000000x10 S10x1 S4000000x1 where
  lhsContracting := [1]
  rhsContracting := [0]
  lhsNonContracting := [0]
  rhsNonContracting := [1]
  lhsBatch := []
  rhsBatch := []
  wf := dot_S4000000x10_S10x1_S4000000x1_1_0_0_1_n_n_wf

class Facts : Prop extends Facts₀ where

variable [Facts]
-- ==== Proof.Mlp.lean ====
/-
  A four-layer perceptron (1 → 10 → 10 → 10 → 1, rectified after each of the first three layers) applied
  independently to every row of a one-column array, written once as a function of the argument arrays over the
  extended reals. Each dense layer is the torch convention `y = h · Wᵀ + b`: output unit `j` is the inner product
  of the incoming activations with ROW `j` of the weight matrix, plus bias `j`. The rectifier compares with the
  reading of the f32 zero word, kept as that word (both programs compare with the same word, so it is never evaluated).
  Both programs are shown to compute `net`; no law beyond the shape of the expression is needed, so nothing here
  asks the inputs to be finite.
-/
import Idealize.ShloMosaic.PureOps.Ideal
import Idealize.ShloMosaic.Lib.ValueIdx

noncomputable section

open scoped BigOperators

namespace Cert.Mlp

open Idealize.ShloMosaic Idealize.ShloMosaic.ValueIdx

/-- One dense layer at output unit `j`: `∑ q, h q · W[j, q] + b j`. -/
def affine {n k : Nat} (h : Fin k → EReal) (w : (⟨2, ![n, k]⟩ : Shape).Idx → EReal) (b : Fin n → EReal) (j : Fin n) : EReal :=
  (∑ q : Fin k, h q * w (ix2 j q)) + b j

/-- The rectifier: the larger of a value and the f32 zero word's reading. -/
def relu (v : EReal) : EReal := max v (Ideal.ofBits .f32 0x00000000#32)

/-- The network on ONE row: the row's single feature `x` (a one-term family, the contraction axis of the first
    layer has extent one), through the three rectified layers and the last affine one, whose single output unit is `0`. -/
def row (x : Fin 1 → EReal)
    (w1 : (⟨2, ![10, 1]⟩ : Shape).Idx → EReal) (b1 : Fin 10 → EReal)
    (w2 : (⟨2, ![10, 10]⟩ : Shape).Idx → EReal) (b2 : Fin 10 → EReal)
    (w3 : (⟨2, ![10, 10]⟩ : Shape).Idx → EReal) (b3 : Fin 10 → EReal)
    (w4 : (⟨2, ![1, 10]⟩ : Shape).Idx → EReal) (b4 : Fin 1 → EReal) : EReal :=
  affine (fun q3 => relu (affine (fun q2 => relu (affine (fun q1 => relu (affine x w1 b1 q1)) w2 b2 q2)) w3 b3 q3)) w4 b4 0

/-- The network on the whole array: entry `(r, ·)` of the result is the network on row `r` of `x`, with the
    biases given as rank-one arrays. -/
def net (x : (⟨2, ![4000000, 1]⟩ : Shape).Idx → EReal)
    (w1 : (⟨2, ![10, 1]⟩ : Shape).Idx → EReal) (b1 : (⟨1, ![10]⟩ : Shape).Idx → EReal)
    (w2 : (⟨2, ![10, 10]⟩ : Shape).Idx → EReal) (b2 : (⟨1, ![10]⟩ : Shape).Idx → EReal)
    (w3 : (⟨2, ![10, 10]⟩ : Shape).Idx → EReal) (b3 : (⟨1, ![10]⟩ : Shape).Idx → EReal)
    (w4 : (⟨2, ![1, 10]⟩ : Shape).Idx → EReal) (b4 : (⟨1, ![1]⟩ : Shape).Idx → EReal) :
    (⟨2, ![4000000, 1]⟩ : Shape).Idx → EReal :=
  fun i => row (fun k => x (ix2 (⟨(i 0).val, idx2_lt0 i⟩ : Fin 4000000) k)) w1 (fun j => b1 (ix1 j)) w2 (fun j => b2 (ix1 j))
    w3 (fun j => b3 (ix1 j)) w4 (fun j => b4 (ix1 j))

/-- At an index given by its coordinates the network reads row `r`. -/
theorem net_ix2 (x : (⟨2, ![4000000, 1]⟩ : Shape).Idx → EReal)
    (w1 : (⟨2, ![10, 1]⟩ : Shape).Idx → EReal) (b1 : (⟨1, ![10]⟩ : Shape).Idx → EReal)
    (w2 : (⟨2, ![10, 10]⟩ : Shape).Idx → EReal) (b2 : (⟨1, ![10]⟩ : Shape).Idx → EReal)
    (w3 : (⟨2, ![10, 10]⟩ : Shape).Idx → EReal) (b3 : (⟨1, ![10]⟩ : Shape).Idx → EReal)
    (w4 : (⟨2, ![1, 10]⟩ : Shape).Idx → EReal) (b4 : (⟨1, ![1]⟩ : Shape).Idx → EReal) (r : Fin 4000000) (c : Fin 1) :
    net x w1 b1 w2 b2 w3 b3 w4 b4 (ix2 r c)
      = row (fun k => x (ix2 r k)) w1 (fun j => b1 (ix1 j)) w2 (fun j => b2 (ix1 j)) w3 (fun j => b3 (ix1 j)) w4 (fun j => b4 (ix1 j)) :=
  rfl

end Cert.Mlp

end
-- ==== Proof.RefNet.lean ====
/-
  The reference computes the network. Its program is four dense layers written with jnp: each `h @ W.T + b` is a
  transpose of the weight matrix, a dot over the shared axis, and the bias broadcast over the rows; each `relu` a
  maximum with a broadcast zero. Read at an index `(r, j)`, stage by stage: the dot's left factor sits at `(r, q)`,
  its right factor — the transposed matrix at `(q, j)` — is the weight matrix at `(j, q)`, and the broadcast bias is
  the bias at `j`. So every layer is `Mlp.affine` of the previous one, rectified, and the result array is `Mlp.net`.
-/
import proofs.«157965_j2078764171470_1_alg».proof.Proof.Gen.ReferenceIdeal.Read
import proofs.«157965_j2078764171470_1_alg».proof.Proof.Mlp

noncomputable section

open scoped BigOperators

namespace Cert.ReferenceIdeal.RefNet

open Cert.ReferenceIdeal Cert.ReferenceIdeal.Read Idealize.ShloMosaic Idealize.ShloMosaic.ValueIdx Cert.Mlp

/-! ## Where each stage reads its operands -/

/-- Layer 1, left factor: row `r` of the input, at the contraction coordinate. -/
theorem left1 (r : Fin 4000000) (j : Fin 10) (k : Fin 1) : lidx_main_v1 (ix2 r j) k = ix2 r k := by
  funext a; match a with | ⟨0, _⟩ => rfl | ⟨1, _⟩ => rfl
/-- Layer 1, right factor: the transposed matrix at `(k, j)` is the matrix at `(j, k)`. -/
theorem right1 (r : Fin 4000000) (j : Fin 10) (k : Fin 1) : idx_main_v0 (ridx_main_v1 (ix2 r j) k) = ix2 j k := by
  funext a; match a with | ⟨0, _⟩ => rfl | ⟨1, _⟩ => rfl
/-- Layer 1, bias: broadcast over the rows, it is read at the column. -/
theorem bias1 (r : Fin 4000000) (j : Fin 10) : idx_main_v2 (idx_main_v3 (ix2 r j)) = ix1 j := by
  funext a; match a with | ⟨0, _⟩ => rfl

theorem left2 (r : Fin 4000000) (j : Fin 10) (k : Fin 10) : lidx_main_v7 (ix2 r j) k = ix2 r k := by
  funext a; match a with | ⟨0, _⟩ => rfl | ⟨1, _⟩ => rfl
theorem right2 (r : Fin 4000000) (j : Fin 10) (k : Fin 10) : idx_main_v6 (ridx_main_v7 (ix2 r j) k) = ix2 j k := by
  funext a; match a with | ⟨0, _⟩ => rfl | ⟨1, _⟩ => rfl
theorem bias2 (r : Fin 4000000) (j : Fin 10) : idx_main_v8 (idx_main_v9 (ix2 r j)) = ix1 j := by
  funext a; match a with | ⟨0, _⟩ => rfl

theorem left3 (r : Fin 4000000) (j : Fin 10) (k : Fin 10) : lidx_main_v13 (ix2 r j) k = ix2 r k := by
  funext a; match a with | ⟨0, _⟩ => rfl | ⟨1, _⟩ => rfl
theorem right3 (r : Fin 4000000) (j : Fin 10) (k : Fin 10) : idx_main_v12 (ridx_main_v13 (ix2 r j) k) = ix2 j k := by
  funext a; match a with | ⟨0, _⟩ => rfl | ⟨1, _⟩ => rfl
theorem bias3 (r : Fin 4000000) (j : Fin 10) : idx_main_v14 (idx_main_v15 (ix2 r j)) = ix1 j := by
  funext a; match a with | ⟨0, _⟩ => rfl

theorem left4 (r : Fin 4000000) (c : Fin 1) (k : Fin 10) : lidx_main_v19 (ix2 r c) k = ix2 r k := by
  funext a; match a with | ⟨0, _⟩ => rfl | ⟨1, _⟩ => rfl
theorem right4 (r : Fin 4000000) (c : Fin 1) (k : Fin 10) : idx_main_v18 (ridx_main_v19 (ix2 r c) k) = ix2 c k := by
  funext a; match a with | ⟨0, _⟩ => rfl | ⟨1, _⟩ => rfl
theorem bias4 (r : Fin 4000000) (c : Fin 1) : idx_main_v20 (idx_main_v21 (ix2 r c)) = ix1 (0 : Fin 1) := by
  funext a; match a with | ⟨0, _⟩ => rfl

/-! ## The layers -/

variable (x0 : (⟨S4000000x1, .f32⟩ : BufTy).Contents (Elt Ideal)) (x1 : (⟨S10x1, .f32⟩ : BufTy).Contents (Elt Ideal))
  (x2 : (⟨S10, .f32⟩ : BufTy).Contents (Elt Ideal)) (x3 : (⟨S10x10, .f32⟩ : BufTy).Contents (Elt Ideal))
  (x4 : (⟨S10, .f32⟩ : BufTy).Contents (Elt Ideal)) (x5 : (⟨S10x10, .f32⟩ : BufTy).Contents (Elt Ideal))
  (x6 : (⟨S10, .f32⟩ : BufTy).Contents (Elt Ideal)) (x7 : (⟨S1x10, .f32⟩ : BufTy).Contents (Elt Ideal))
  (x8 : (⟨S1, .f32⟩ : BufTy).Contents (Elt Ideal))

/-- The first rectified layer at `(r, j)`. -/
theorem layer1 (r : Fin 4000000) (j : Fin 10) :
    val_main_v5 (F := Ideal) x0 x1 x2 (ix2 r j) = relu (affine (fun k => x0 (ix2 r k)) x1 (fun j => x2 (ix1 j)) j) := by
  rw [val_main_v5_apply, val_main_v4_apply, val_main_v1_apply, val_main_v3_apply, val_main_v2_apply,
    val_main_call0_v0_apply, val_main_call0_cst_apply]
  simp only [val_main_v0_apply, left1, right1, bias1]
  rfl

/-- The second rectified layer at `(r, j)`, over the first. -/
theorem layer2 (r : Fin 4000000) (j : Fin 10) :
    val_main_v11 (F := Ideal) x0 x1 x2 x3 x4 (ix2 r j)
      = relu (affine (fun q => val_main_v5 (F := Ideal) x0 x1 x2 (ix2 r q)) x3 (fun j => x4 (ix1 j)) j) := by
  rw [val_main_v11_apply, val_main_v10_apply, val_main_v7_apply, val_main_v9_apply, val_main_v8_apply,
    val_main_call1_v0_apply, val_main_call1_cst_apply]
  simp only [val_main_v6_apply, left2, right2, bias2]
  rfl

/-- The third rectified layer at `(r, j)`, over the second. -/
theorem layer3 (r : Fin 4000000) (j : Fin 10) :
    val_main_v17 (F := Ideal) x0 x1 x2 x3 x4 x5 x6 (ix2 r j)
      = relu (affine (fun q => val_main_v11 (F := Ideal) x0 x1 x2 x3 x4 (ix2 r q)) x5 (fun j => x6 (ix1 j)) j) := by
  rw [val_main_v17_apply, val_main_v16_apply, val_main_v13_apply, val_main_v15_apply, val_main_v14_apply,
    val_main_call2_v0_apply, val_main_call2_cst_apply]
  simp only [val_main_v12_apply, left3, right3, bias3]
  rfl

/-- The last, affine layer at `(r, 0)`, over the third. -/
theorem layer4 (r : Fin 4000000) :
    val_main_v22 (F := Ideal) x0 x1 x2 x3 x4 x5 x6 x7 x8 (ix2 r (0 : Fin 1))
      = affine (fun q => val_main_v17 (F := Ideal) x0 x1 x2 x3 x4 x5 x6 (ix2 r q)) x7 (fun j => x8 (ix1 j)) (0 : Fin 1) := by
  rw [val_main_v22_apply, val_main_v19_apply, val_main_v21_apply, val_main_v20_apply]
  simp only [val_main_v18_apply, left4, right4, bias4]
  rfl

/-- THE REFERENCE'S RESULT, as a function of its arguments, is the network. -/
theorem result_eq_net :
    val_main_v22 (F := Ideal) x0 x1 x2 x3 x4 x5 x6 x7 x8 = net x0 x1 x2 x3 x4 x5 x6 x7 x8 := by
  funext i
  obtain ⟨r, c, rfl⟩ : ∃ (r : Fin 4000000) (c : Fin 1), i = ix2 r c := ⟨i 0, i 1, eq_ix2 i⟩
  obtain rfl : c = 0 := Subsingleton.elim _ _
  rw [net_ix2, layer4]
  unfold row
  simp only [layer3, layer2, layer1]

end Cert.ReferenceIdeal.RefNet

end
-- ==== Proof.KernelRow.lean ====
/-
  What the kernel's body computes on one block, entry by entry. The body holds a block of 4000 rows of the input
  and the whole of every weight matrix and bias (each bias as a [1, n] row). Every layer is a product of the
  activations with the TRANSPOSED weight matrix into a zero accumulator — entry `(p, j)` is `∑ q, h[p, q] · W[j, q]` —
  plus the bias row broadcast over the 4000 rows, then (first three layers) a maximum with a broadcast zero; the
  roundings to bf16 on the way into each product are the identity on the extended reals. So entry `(p, ·)` of the
  stored block is `Mlp.row` of row `p` of the input block.
-/
import proofs.«157965_j2078764171470_1_alg».proof.Proof.Gen.KernelIdeal.Skeleton
import proofs.«157965_j2078764171470_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Mlp

/-! ## The three matrix products read at an entry

Each contracts the left operand's second axis with the right operand's first; the contraction index is its one
coordinate. -/

theorem prod1_row (i : S4000x10.Idx) (q : dot_S4000x1_S1x10_S4000x10_1_0_0_1_n_n.contr.Idx) : (dot_S4000x1_S1x10_S4000x10_1_0_0_1_n_n.lhsIdx i q 0).val = (i 0).val := by
  unfold DotDims.lhsIdx
  rw [dif_neg (show ¬(0 : Fin S4000x1.rank) ∈ dot_S4000x1_S1x10_S4000x10_1_0_0_1_n_n.lhsBatch by decide), dif_pos (show (0 : Fin S4000x1.rank) ∈ dot_S4000x1_S1x10_S4000x10_1_0_0_1_n_n.lhsNonContracting by decide)]
  rfl
theorem prod1_col (i : S4000x10.Idx) (q : dot_S4000x1_S1x10_S4000x10_1_0_0_1_n_n.contr.Idx) : (dot_S4000x1_S1x10_S4000x10_1_0_0_1_n_n.rhsIdx i q 1).val = (i 1).val := by
  unfold DotDims.rhsIdx
  rw [dif_neg (show ¬(1 : Fin S1x10.rank) ∈ dot_S4000x1_S1x10_S4000x10_1_0_0_1_n_n.rhsBatch by decide), dif_pos (show (1 : Fin S1x10.rank) ∈ dot_S4000x1_S1x10_S4000x10_1_0_0_1_n_n.rhsNonContracting by decide)]
  rfl
/-- Entry `(p, j)` of the [4000, 1] × [1, 10] product into a zero accumulator: `∑ k, l[p, k] · r[k, j]`. -/
theorem prod1 (l : FVec Ideal S4000x1 .bf16) (r : FVec Ideal S1x10 .bf16) (p : Fin 4000) (j : Fin 10) :
    matmul dot_S4000x1_S1x10_S4000x10_1_0_0_1_n_n none l r (constant (F := Ideal) S4000x10 .f32 0x00000000#32) (ix2 p j) = ∑ k : Fin 1, l (ix2 p k) * r (ix2 k j) := by
  show FloatOps.matmul dot_S4000x1_S1x10_S4000x10_1_0_0_1_n_n none l r (constant (F := Ideal) S4000x10 .f32 0x00000000#32) (ix2 p j) = _
  rw [Ideal.matmul_constant_zero_apply, ← Equiv.sum_comp (contrEquiv1 dot_S4000x1_S1x10_S4000x10_1_0_0_1_n_n 1 rfl rfl).symm]
  refine Finset.sum_congr rfl fun k _ => ?_
  have hk := contrEquiv1_symm_val dot_S4000x1_S1x10_S4000x10_1_0_0_1_n_n 1 rfl rfl k
  have el : dot_S4000x1_S1x10_S4000x10_1_0_0_1_n_n.lhsIdx (ix2 p j) ((contrEquiv1 dot_S4000x1_S1x10_S4000x10_1_0_0_1_n_n 1 rfl rfl).symm k) = ix2 p k := funext fun a => Fin.ext (by
    match a with
    | ⟨0, _⟩ => exact prod1_row _ _
    | ⟨1, _⟩ => exact (dot_S4000x1_S1x10_S4000x10_1_0_0_1_n_n.lhsIdx_val_of_single rfl _ _).trans hk)
  have er : dot_S4000x1_S1x10_S4000x10_1_0_0_1_n_n.rhsIdx (ix2 p j) ((contrEquiv1 dot_S4000x1_S1x10_S4000x10_1_0_0_1_n_n 1 rfl rfl).symm k) = ix2 k j := funext fun a => Fin.ext (by
    match a with
    | ⟨0, _⟩ => exact (dot_S4000x1_S1x10_S4000x10_1_0_0_1_n_n.rhsIdx_val_of_single rfl _ _).trans hk
    | ⟨1, _⟩ => exact prod1_col _ _)
  rw [el, er]

theorem prod2_row (i : S4000x10.Idx) (q : dot_S4000x10_S10x10_S4000x10_1_0_0_1_n_n.contr.Idx) : (dot_S4000x10_S10x10_S4000x10_1_0_0_1_n_n.lhsIdx i q 0).val = (i 0).val := by
  unfold DotDims.lhsIdx
  rw [dif_neg (show ¬(0 : Fin S4000x10.rank) ∈ dot_S4000x10_S10x10_S4000x10_1_0_0_1_n_n.lhsBatch by decide), dif_pos (show (0 : Fin S4000x10.rank) ∈ dot_S4000x10_S10x10_S4000x10_1_0_0_1_n_n.lhsNonContracting by decide)]
  rfl
theorem prod2_col (i : S4000x10.Idx) (q : dot_S4000x10_S10x10_S4000x10_1_0_0_1_n_n.contr.Idx) : (dot_S4000x10_S10x10_S4000x10_1_0_0_1_n_n.rhsIdx i q 1).val = (i 1).val := by
  unfold DotDims.rhsIdx
  rw [dif_neg (show ¬(1 : Fin S10x10.rank) ∈ dot_S4000x10_S10x10_S4000x10_1_0_0_1_n_n.rhsBatch by decide), dif_pos (show (1 : Fin S10x10.rank) ∈ dot_S4000x10_S10x10_S4000x10_1_0_0_1_n_n.rhsNonContracting by decide)]
  rfl
/-- Entry `(p, j)` of the [4000, 10] × [10, 10] product into a zero accumulator: `∑ k, l[p, k] · r[k, j]`. -/
theorem prod2 (l : FVec Ideal S4000x10 .bf16) (r : FVec Ideal S10x10 .bf16) (p : Fin 4000) (j : Fin 10) :
    matmul dot_S4000x10_S10x10_S4000x10_1_0_0_1_n_n none l r (constant (F := Ideal) S4000x10 .f32 0x00000000#32) (ix2 p j) = ∑ k : Fin 10, l (ix2 p k) * r (ix2 k j) := by
  show FloatOps.matmul dot_S4000x10_S10x10_S4000x10_1_0_0_1_n_n none l r (constant (F := Ideal) S4000x10 .f32 0x00000000#32) (ix2 p j) = _
  rw [Ideal.matmul_constant_zero_apply, ← Equiv.sum_comp (contrEquiv1 dot_S4000x10_S10x10_S4000x10_1_0_0_1_n_n 10 rfl rfl).symm]
  refine Finset.sum_congr rfl fun k _ => ?_
  have hk := contrEquiv1_symm_val dot_S4000x10_S10x10_S4000x10_1_0_0_1_n_n 10 rfl rfl k
  have el : dot_S4000x10_S10x10_S4000x10_1_0_0_1_n_n.lhsIdx (ix2 p j) ((contrEquiv1 dot_S4000x10_S10x10_S4000x10_1_0_0_1_n_n 10 rfl rfl).symm k) = ix2 p k := funext fun a => Fin.ext (by
    match a with
    | ⟨0, _⟩ => exact prod2_row _ _
    | ⟨1, _⟩ => exact (dot_S4000x10_S10x10_S4000x10_1_0_0_1_n_n.lhsIdx_val_of_single rfl _ _).trans hk)
  have er : dot_S4000x10_S10x10_S4000x10_1_0_0_1_n_n.rhsIdx (ix2 p j) ((contrEquiv1 dot_S4000x10_S10x10_S4000x10_1_0_0_1_n_n 10 rfl rfl).symm k) = ix2 k j := funext fun a => Fin.ext (by
    match a with
    | ⟨0, _⟩ => exact (dot_S4000x10_S10x10_S4000x10_1_0_0_1_n_n.rhsIdx_val_of_single rfl _ _).trans hk
    | ⟨1, _⟩ => exact prod2_col _ _)
  rw [el, er]

theorem prod3_row (i : S4000x1.Idx) (q : dot_S4000x10_S10x1_S4000x1_1_0_0_1_n_n.contr.Idx) : (dot_S4000x10_S10x1_S4000x1_1_0_0_1_n_n.lhsIdx i q 0).val = (i 0).val := by
  unfold DotDims.lhsIdx
  rw [dif_neg (show ¬(0 : Fin S4000x10.rank) ∈ dot_S4000x10_S10x1_S4000x1_1_0_0_1_n_n.lhsBatch by decide), dif_pos (show (0 : Fin S4000x10.rank) ∈ dot_S4000x10_S10x1_S4000x1_1_0_0_1_n_n.lhsNonContracting by decide)]
  rfl
theorem prod3_col (i : S4000x1.Idx) (q : dot_S4000x10_S10x1_S4000x1_1_0_0_1_n_n.contr.Idx) : (dot_S4000x10_S10x1_S4000x1_1_0_0_1_n_n.rhsIdx i q 1).val = (i 1).val := by
  unfold DotDims.rhsIdx
  rw [dif_neg (show ¬(1 : Fin S10x1.rank) ∈ dot_S4000x10_S10x1_S4000x1_1_0_0_1_n_n.rhsBatch by decide), dif_pos (show (1 : Fin S10x1.rank) ∈ dot_S4000x10_S10x1_S4000x1_1_0_0_1_n_n.rhsNonContracting by decide)]
  rfl
/-- Entry `(p, j)` of the [4000, 10] × [10, 1] product into a zero accumulator: `∑ k, l[p, k] · r[k, j]`. -/
theorem prod3 (l : FVec Ideal S4000x10 .bf16) (r : FVec Ideal S10x1 .bf16) (p : Fin 4000) (j : Fin 1) :
    matmul dot_S4000x10_S10x1_S4000x1_1_0_0_1_n_n none l r (constant (F := Ideal) S4000x1 .f32 0x00000000#32) (ix2 p j) = ∑ k : Fin 10, l (ix2 p k) * r (ix2 k j) := by
  show FloatOps.matmul dot_S4000x10_S10x1_S4000x1_1_0_0_1_n_n none l r (constant (F := Ideal) S4000x1 .f32 0x00000000#32) (ix2 p j) = _
  rw [Ideal.matmul_constant_zero_apply, ← Equiv.sum_comp (contrEquiv1 dot_S4000x10_S10x1_S4000x1_1_0_0_1_n_n 10 rfl rfl).symm]
  refine Finset.sum_congr rfl fun k _ => ?_
  have hk := contrEquiv1_symm_val dot_S4000x10_S10x1_S4000x1_1_0_0_1_n_n 10 rfl rfl k
  have el : dot_S4000x10_S10x1_S4000x1_1_0_0_1_n_n.lhsIdx (ix2 p j) ((contrEquiv1 dot_S4000x10_S10x1_S4000x1_1_0_0_1_n_n 10 rfl rfl).symm k) = ix2 p k := funext fun a => Fin.ext (by
    match a with
    | ⟨0, _⟩ => exact prod3_row _ _
    | ⟨1, _⟩ => exact (dot_S4000x10_S10x1_S4000x1_1_0_0_1_n_n.lhsIdx_val_of_single rfl _ _).trans hk)
  have er : dot_S4000x10_S10x1_S4000x1_1_0_0_1_n_n.rhsIdx (ix2 p j) ((contrEquiv1 dot_S4000x10_S10x1_S4000x1_1_0_0_1_n_n 10 rfl rfl).symm k) = ix2 k j := funext fun a => Fin.ext (by
    match a with
    | ⟨0, _⟩ => exact (dot_S4000x10_S10x1_S4000x1_1_0_0_1_n_n.rhsIdx_val_of_single rfl _ _).trans hk
    | ⟨1, _⟩ => exact prod3_col _ _)
  rw [el, er]

/-! ## The three transposed weight matrices read at an entry: the transpose at `(k, j)` is the matrix at `(j, k)` -/

theorem weights1_t (w : FVec Ideal S10x1 .bf16) (k : Fin 1) (j : Fin 10) :
    transpose S1x10 [1, 0] w transposes_S10x1_p1_0_S1x10 (ix2 k j) = w (ix2 j k) := transpose_ix2_apply _ _ _ _
theorem weights2_t (w : FVec Ideal S10x10 .bf16) (k : Fin 10) (j : Fin 10) :
    transpose S10x10 [1, 0] w transposes_S10x10_p1_0_S10x10 (ix2 k j) = w (ix2 j k) := transpose_ix2_apply _ _ _ _
theorem weights4_t (w : FVec Ideal S1x10 .bf16) (k : Fin 10) (c : Fin 1) :
    transpose S10x1 [1, 0] w transposes_S1x10_p1_0_S10x1 (ix2 k c) = w (ix2 c k) := transpose_ix2_apply _ _ _ _

/-! ## The layers on a block -/

/-- The first rectified layer on a block: from the 4000 × 1 input block, the 10 × 1 weights and the 1 × 10 bias row. -/
def first (x : Vec Ideal S4000x1 .f32) (w : Vec Ideal S10x1 .f32) (b : Vec Ideal S1x10 .f32) : FVec Ideal S4000x10 .f32 :=
  maximumf (addf (matmul dot_S4000x1_S1x10_S4000x10_1_0_0_1_n_n none (truncf .bf16 x bitsLt_bf16_f32)
      (transpose S1x10 [1, 0] (truncf .bf16 w bitsLt_bf16_f32) transposes_S10x1_p1_0_S1x10) (constant S4000x10 .f32 0x00000000#32))
    (broadcastTo S4000x10 (shapeCast S1x10 b shapeCasts_S1x10_S1x10) broadcasts_S1x10_S4000x10))
    (broadcast S4000x10 (Scalar.ofBits .f32 0x00000000#32))

/-- A rectified 10 → 10 layer on a block of activations. -/
def hidden (h : FVec Ideal S4000x10 .f32) (w : Vec Ideal S10x10 .f32) (b : Vec Ideal S1x10 .f32) : FVec Ideal S4000x10 .f32 :=
  maximumf (addf (matmul dot_S4000x10_S10x10_S4000x10_1_0_0_1_n_n none (truncf .bf16 h bitsLt_bf16_f32)
      (transpose S10x10 [1, 0] (truncf .bf16 w bitsLt_bf16_f32) transposes_S10x10_p1_0_S10x10) (constant S4000x10 .f32 0x00000000#32))
    (broadcastTo S4000x10 (shapeCast S1x10 b shapeCasts_S1x10_S1x10) broadcasts_S1x10_S4000x10))
    (broadcast S4000x10 (Scalar.ofBits .f32 0x00000000#32))

/-- The activations entering the last layer are the third rectified layer's (rounded to bf16: the identity here). -/
theorem pay3_eq (x0 : Vec Ideal S4000x1 .f32) (x1 : Vec Ideal S10x1 .f32) (x2 : Vec Ideal S1x10 .f32) (x3 : Vec Ideal S10x10 .f32)
    (x4 : Vec Ideal S1x10 .f32) (x5 : Vec Ideal S10x10 .f32) (x6 : Vec Ideal S1x10 .f32) :
    k0_pay3 x0 x1 x2 x3 x4 x5 x6 = truncf .bf16 (hidden (hidden (first x0 x1 x2) x3 x4) x5 x6) bitsLt_bf16_f32 := rfl

/-- The last layer's weights enter it rounded to bf16: the identity here. -/
theorem pay2_eq (x7 : Vec Ideal S1x10 .f32) : k0_pay2 x7 = x7 := rfl

/-- The first layer at entry `(p, j)`. -/
theorem first_apply (x : Vec Ideal S4000x1 .f32) (w : Vec Ideal S10x1 .f32) (b : Vec Ideal S1x10 .f32) (p : Fin 4000) (j : Fin 10) :
    first x w b (ix2 p j) = relu (affine (fun k => x (ix2 p k)) w (fun j => b (ix2 (0 : Fin 1) j)) j) := by
  unfold first
  rw [maximumf_apply, addf_apply, prod1, broadcastTo_1b_ab_apply, shapeCast_self]
  refine congrArg₂ max (congrArg₂ (· + ·) (Finset.sum_congr rfl fun k _ => ?_) rfl) rfl
  rw [weights1_t]
  rfl

/-- A hidden layer at entry `(p, j)`. -/
theorem hidden_apply (h : FVec Ideal S4000x10 .f32) (w : Vec Ideal S10x10 .f32) (b : Vec Ideal S1x10 .f32) (p : Fin 4000) (j : Fin 10) :
    hidden h w b (ix2 p j) = relu (affine (fun q => h (ix2 p q)) w (fun j => b (ix2 (0 : Fin 1) j)) j) := by
  unfold hidden
  rw [maximumf_apply, addf_apply, prod2, broadcastTo_1b_ab_apply, shapeCast_self]
  refine congrArg₂ max (congrArg₂ (· + ·) (Finset.sum_congr rfl fun k _ => ?_) rfl) rfl
  rw [weights2_t]
  rfl

/-- The last, affine layer at entry `(p, c)`: the stored payload over the rounded third-layer activations `h`, the
    rounded 1 × 10 weights `w` and the 1 × 1 bias. -/
theorem last_apply (w : FVec Ideal S1x10 .bf16) (h : FVec Ideal S4000x10 .bf16) (b : Vec Ideal S1x1 .f32) (p : Fin 4000) (c : Fin 1) :
    k0_pay1 w h b (ix2 p c) = affine (fun q => h (ix2 p q)) w (fun j => b (ix2 (0 : Fin 1) j)) c := by
  unfold k0_pay1
  rw [addf_apply, prod3, broadcastTo_1b_ab_apply, shapeCast_self]
  refine congrArg₂ (· + ·) (Finset.sum_congr rfl fun k _ => ?_) rfl
  rw [weights4_t]

/-- THE BLOCK THE BODY STORES, at entry `(p, 0)`, is the network on row `p` of the input block. -/
theorem stored_apply (x0 : Vec Ideal S4000x1 .f32) (x1 : Vec Ideal S10x1 .f32) (x2 : Vec Ideal S1x10 .f32) (x3 : Vec Ideal S10x10 .f32)
    (x4 : Vec Ideal S1x10 .f32) (x5 : Vec Ideal S10x10 .f32) (x6 : Vec Ideal S1x10 .f32) (x7 : Vec Ideal S1x10 .f32)
    (x8 : Vec Ideal S1x1 .f32) (p : Fin 4000) :
    k0_pay1 (k0_pay2 x7) (k0_pay3 x0 x1 x2 x3 x4 x5 x6) x8 (ix2 p (0 : Fin 1))
      = row (fun k => x0 (ix2 p k)) x1 (fun j => x2 (ix2 (0 : Fin 1) j)) x3 (fun j => x4 (ix2 (0 : Fin 1) j))
          x5 (fun j => x6 (ix2 (0 : Fin 1) j)) x7 (fun j => x8 (ix2 (0 : Fin 1) j)) := by
  rw [last_apply, pay3_eq, pay2_eq]
  unfold row
  refine congrArg (fun f => affine f x7 (fun j => x8 (ix2 (0 : Fin 1) j)) (0 : Fin 1)) (funext fun q3 => ?_)
  rw [truncf_apply, hidden_apply]
  refine congrArg relu (congrArg (fun f => affine f x5 (fun j => x6 (ix2 (0 : Fin 1) j)) q3) (funext fun q2 => ?_))
  rw [hidden_apply]
  refine congrArg relu (congrArg (fun f => affine f x3 (fun j => x4 (ix2 (0 : Fin 1) j)) q2) (funext fun q1 => ?_))
  exact first_apply x0 x1 x2 p q1

end Cert.KernelIdeal.Block

end
-- ==== Proof.KernelIndex.lean ====
/-
  Which block of its array each window of the kernel's one launch holds at each of the 1000 grid points, decided over
  the grid: the input and the output move together, block `t` of 4000 rows at point `t`; every weight matrix and bias
  row is held whole, block `(0, 0)`, at every point.
-/
import proofs.«157965_j2078764171470_1_alg».proof.Proof.Gen.KernelIdeal.Launch

noncomputable section

namespace Cert.KernelIdeal.Blocks

open Cert.KernelIdeal Cert.KernelIdeal.Gen Idealize.ShloMosaic

/-- The input window at point `t` holds block `(t, 0)`. -/
theorem input_at : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The output window at point `t` holds block `(t, 0)`. -/
theorem output_at : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Window 1's block is its whole array at every point. -/
theorem whole1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 2's block is its whole array at every point. -/
theorem whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 3's block is its whole array at every point. -/
theorem whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block is its whole array at every point. -/
theorem whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block is its whole array at every point. -/
theorem whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block is its whole array at every point. -/
theorem whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block is its whole array at every point. -/
theorem whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block is its whole array at every point. -/
theorem whole8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

end Cert.KernelIdeal.Blocks

end
-- ==== Proof.KernelNet.lean ====
/-
  From the blocks to the array: after the kernel's run its result array is the network of the argument arrays.
  Point `t` of the 1000 reads rows `4000 t … 4000 t + 3999` of the input and the whole of every weight matrix and
  bias (the biases through the one-row matrices the host makes of them before the launch), and writes back the
  block whose entry `(p, 0)` is the network on row `p` of its input block: that is rows `4000 t …` of `Mlp.net` of
  the arguments. The 1000 blocks tile the 4,000,000 rows (row `r` lies in block `r / 4000`), so the whole array is `Mlp.net`.
-/
import proofs.«157965_j2078764171470_1_alg».proof.Proof.Gen.KernelIdeal.Value
import proofs.«157965_j2078764171470_1_alg».proof.Proof.KernelRow
import proofs.«157965_j2078764171470_1_alg».proof.Proof.KernelIndex
import Idealize.ShloMosaic.Lib.StableHlo.Run
import Idealize.ShloMosaic.Lib.ValueLayout
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Net

open Cert.KernelIdeal Cert.KernelIdeal.Gen Cert.KernelIdeal.Value Idealize.ShloMosaic.ValueIdx Cert.Mlp

variable (m : (ℓ : Loc nD τ sig) → Buf (Elt Ideal) ℓ) (ρ : Dev nD → PrngReg)

theorem zeros : (![0, 0] : Fin 2 → Nat) = fun _ => 0 := funext fun a => by fin_cases a <;> rfl

/-- The network of the argument arrays as launched, on core `c`. -/
abbrev result (c : Dev nD) : Buf (Elt Ideal) ((c : Thread nD τ).loc main_v4) :=
  net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## What each window's block holds -/

/-- The input window's block at point `t` is rows `4000 t … 4000 t + 3999` of the input. -/
theorem read0 (c : Dev nD) (t : Fin cfg0.N) (p : Fin 4000) (k : Fin 1) (r : Fin 4000000) (hr : r.val = t.val * 4000 + p.val) :
    (iblk m c 0 t : Vec Ideal S4000x1 .f32) (ix2 p k) = (m ((c : Thread nD τ).loc main_arg0) : S4000000x1.Idx → Elt Ideal .f32) (ix2 r k) := by
  obtain ⟨h0, h1⟩ := Blocks.input_at t
  unfold iblk
  rw [View.read_apply]
  show V m c main_arg0 _ = _
  rw [V_main_arg0]
  congr 1
  funext a
  apply Fin.ext
  match a with
  | ⟨0, _⟩ => show win0_0.index t (0 : Fin 2) * 4000 + 1 * p.val = r.val; rw [h0, hr]; omega
  | ⟨1, _⟩ => show win0_0.index t (1 : Fin 2) * 1 + 1 * k.val = k.val; rw [h1]; omega

/-- Window 1 holds the whole of `main_arg1` at every point. -/
theorem read1 (c : Dev nD) (t : Fin cfg0.N) (y : S10x1.Idx) :
    (iblk m c 1 t : Vec Ideal S10x1 .f32) y = (m ((c : Thread nD τ).loc main_arg1) : S10x1.Idx → Elt Ideal .f32) y := by
  obtain ⟨h0, h1⟩ := Blocks.whole1 t
  unfold iblk
  rw [View.read_apply]
  show V m c main_arg1 _ = _
  rw [V_main_arg1]
  congr 1
  funext a
  apply Fin.ext
  match a with
  | ⟨0, _⟩ => show win0_1.index t (0 : Fin 2) * 10 + 1 * (y 0).val = (y 0).val; rw [h0]; omega
  | ⟨1, _⟩ => show win0_1.index t (1 : Fin 2) * 1 + 1 * (y 1).val = (y 1).val; rw [h1]; omega

/-- Before the launch the host lays `main_arg2` out as a one-row matrix. -/
theorem host2 (c : Dev nD) :
    (V m c main_v0 : S1x10.Idx → Elt Ideal .f32) = shapeCast S1x10 (m ((c : Thread nD τ).loc main_arg2) : S10.Idx → Elt Ideal .f32) shapeCasts_S10_S1x10 := by
  dsimp only [Gen.V, Gen.hostOps0]; after_results; rfl

/-- Window 2 holds that row whole at every point: its entry `(0, j)` is entry `j` of `main_arg2`. -/
theorem read2 (c : Dev nD) (t : Fin cfg0.N) (j : Fin 10) :
    (iblk m c 2 t : Vec Ideal S1x10 .f32) (ix2 (0 : Fin 1) j) = (m ((c : Thread nD τ).loc main_arg2) : S10.Idx → Elt Ideal .f32) (ix1 j) := by
  obtain ⟨h0, h1⟩ := Blocks.whole2 t
  have e : (((cfg0.win 2).blk t).view.emb (ix2 (0 : Fin 1) j) : S1x10.Idx) = ix2 (0 : Fin 1) j := by
    funext a
    apply Fin.ext
    match a with
    | ⟨0, _⟩ => show win0_2.index t (0 : Fin 2) * 1 + 1 * 0 = 0; rw [h0]
    | ⟨1, _⟩ => show win0_2.index t (1 : Fin 2) * 10 + 1 * j.val = j.val; rw [h1]; omega
  unfold iblk
  rw [View.read_apply]
  show V m c main_v0 (((cfg0.win 2).blk t).view.emb (ix2 (0 : Fin 1) j)) = _
  rw [e, host2]
  exact shapeCast_a_1a_apply _ _ _ _

/-- Window 3 holds the whole of `main_arg3` at every point. -/
theorem read3 (c : Dev nD) (t : Fin cfg0.N) (y : S10x10.Idx) :
    (iblk m c 3 t : Vec Ideal S10x10 .f32) y = (m ((c : Thread nD τ).loc main_arg3) : S10x10.Idx → Elt Ideal .f32) y := by
  obtain ⟨h0, h1⟩ := Blocks.whole3 t
  unfold iblk
  rw [View.read_apply]
  show V m c main_arg3 _ = _
  rw [V_main_arg3]
  congr 1
  funext a
  apply Fin.ext
  match a with
  | ⟨0, _⟩ => show win0_3.index t (0 : Fin 2) * 10 + 1 * (y 0).val = (y 0).val; rw [h0]; omega
  | ⟨1, _⟩ => show win0_3.index t (1 : Fin 2) * 10 + 1 * (y 1).val = (y 1).val; rw [h1]; omega

/-- Before the launch the host lays `main_arg4` out as a one-row matrix. -/
theorem host4 (c : Dev nD) :
    (V m c main_v1 : S1x10.Idx → Elt Ideal .f32) = shapeCast S1x10 (m ((c : Thread nD τ).loc main_arg4) : S10.Idx → Elt Ideal .f32) shapeCasts_S10_S1x10 := by
  dsimp only [Gen.V, Gen.hostOps0]; after_results; rfl

/-- Window 4 holds that row whole at every point: its entry `(0, j)` is entry `j` of `main_arg4`. -/
theorem read4 (c : Dev nD) (t : Fin cfg0.N) (j : Fin 10) :
    (iblk m c 4 t : Vec Ideal S1x10 .f32) (ix2 (0 : Fin 1) j) = (m ((c : Thread nD τ).loc main_arg4) : S10.Idx → Elt Ideal .f32) (ix1 j) := by
  obtain ⟨h0, h1⟩ := Blocks.whole4 t
  have e : (((cfg0.win 4).blk t).view.emb (ix2 (0 : Fin 1) j) : S1x10.Idx) = ix2 (0 : Fin 1) j := by
    funext a
    apply Fin.ext
    match a with
    | ⟨0, _⟩ => show win0_4.index t (0 : Fin 2) * 1 + 1 * 0 = 0; rw [h0]
    | ⟨1, _⟩ => show win0_4.index t (1 : Fin 2) * 10 + 1 * j.val = j.val; rw [h1]; omega
  unfold iblk
  rw [View.read_apply]
  show V m c main_v1 (((cfg0.win 4).blk t).view.emb (ix2 (0 : Fin 1) j)) = _
  rw [e, host4]
  exact shapeCast_a_1a_apply _ _ _ _

/-- Window 5 holds the whole of `main_arg5` at every point. -/
theorem read5 (c : Dev nD) (t : Fin cfg0.N) (y : S10x10.Idx) :
    (iblk m c 5 t : Vec Ideal S10x10 .f32) y = (m ((c : Thread nD τ).loc main_arg5) : S10x10.Idx → Elt Ideal .f32) y := by
  obtain ⟨h0, h1⟩ := Blocks.whole5 t
  unfold iblk
  rw [View.read_apply]
  show V m c main_arg5 _ = _
  rw [V_main_arg5]
  congr 1
  funext a
  apply Fin.ext
  match a with
  | ⟨0, _⟩ => show win0_5.index t (0 : Fin 2) * 10 + 1 * (y 0).val = (y 0).val; rw [h0]; omega
  | ⟨1, _⟩ => show win0_5.index t (1 : Fin 2) * 10 + 1 * (y 1).val = (y 1).val; rw [h1]; omega

/-- Before the launch the host lays `main_arg6` out as a one-row matrix. -/
theorem host6 (c : Dev nD) :
    (V m c main_v2 : S1x10.Idx → Elt Ideal .f32) = shapeCast S1x10 (m ((c : Thread nD τ).loc main_arg6) : S10.Idx → Elt Ideal .f32) shapeCasts_S10_S1x10 := by
  dsimp only [Gen.V, Gen.hostOps0]; after_results; rfl

/-- Window 6 holds that row whole at every point: its entry `(0, j)` is entry `j` of `main_arg6`. -/
theorem read6 (c : Dev nD) (t : Fin cfg0.N) (j : Fin 10) :
    (iblk m c 6 t : Vec Ideal S1x10 .f32) (ix2 (0 : Fin 1) j) = (m ((c : Thread nD τ).loc main_arg6) : S10.Idx → Elt Ideal .f32) (ix1 j) := by
  obtain ⟨h0, h1⟩ := Blocks.whole6 t
  have e : (((cfg0.win 6).blk t).view.emb (ix2 (0 : Fin 1) j) : S1x10.Idx) = ix2 (0 : Fin 1) j := by
    funext a
    apply Fin.ext
    match a with
    | ⟨0, _⟩ => show win0_6.index t (0 : Fin 2) * 1 + 1 * 0 = 0; rw [h0]
    | ⟨1, _⟩ => show win0_6.index t (1 : Fin 2) * 10 + 1 * j.val = j.val; rw [h1]; omega
  unfold iblk
  rw [View.read_apply]
  show V m c main_v2 (((cfg0.win 6).blk t).view.emb (ix2 (0 : Fin 1) j)) = _
  rw [e, host6]
  exact shapeCast_a_1a_apply _ _ _ _

/-- Window 7 holds the whole of `main_arg7` at every point. -/
theorem read7 (c : Dev nD) (t : Fin cfg0.N) (y : S1x10.Idx) :
    (iblk m c 7 t : Vec Ideal S1x10 .f32) y = (m ((c : Thread nD τ).loc main_arg7) : S1x10.Idx → Elt Ideal .f32) y := by
  obtain ⟨h0, h1⟩ := Blocks.whole7 t
  unfold iblk
  rw [View.read_apply]
  show V m c main_arg7 _ = _
  rw [V_main_arg7]
  congr 1
  funext a
  apply Fin.ext
  match a with
  | ⟨0, _⟩ => show win0_7.index t (0 : Fin 2) * 1 + 1 * (y 0).val = (y 0).val; rw [h0]; omega
  | ⟨1, _⟩ => show win0_7.index t (1 : Fin 2) * 10 + 1 * (y 1).val = (y 1).val; rw [h1]; omega

/-- Before the launch the host lays `main_arg8` out as a one-row matrix. -/
theorem host8 (c : Dev nD) :
    (V m c main_v3 : S1x1.Idx → Elt Ideal .f32) = shapeCast S1x1 (m ((c : Thread nD τ).loc main_arg8) : S1.Idx → Elt Ideal .f32) shapeCasts_S1_S1x1 := by
  dsimp only [Gen.V, Gen.hostOps0]; after_results; rfl

/-- Window 8 holds that row whole at every point: its entry `(0, j)` is entry `j` of `main_arg8`. -/
theorem read8 (c : Dev nD) (t : Fin cfg0.N) (j : Fin 1) :
    (iblk m c 8 t : Vec Ideal S1x1 .f32) (ix2 (0 : Fin 1) j) = (m ((c : Thread nD τ).loc main_arg8) : S1.Idx → Elt Ideal .f32) (ix1 j) := by
  obtain ⟨h0, h1⟩ := Blocks.whole8 t
  have e : (((cfg0.win 8).blk t).view.emb (ix2 (0 : Fin 1) j) : S1x1.Idx) = ix2 (0 : Fin 1) j := by
    funext a
    apply Fin.ext
    match a with
    | ⟨0, _⟩ => show win0_8.index t (0 : Fin 2) * 1 + 1 * 0 = 0; rw [h0]
    | ⟨1, _⟩ => show win0_8.index t (1 : Fin 2) * 1 + 1 * j.val = j.val; rw [h1]; omega
  unfold iblk
  rw [View.read_apply]
  show V m c main_v3 (((cfg0.win 8).blk t).view.emb (ix2 (0 : Fin 1) j)) = _
  rw [e, host8]
  exact shapeCast_a_1a_apply _ _ _ _

/-! ## What each point writes back, and the array -/

/-- WHAT POINT `t` WRITES BACK is block `t` of the network of the arguments. -/
theorem flushed_eq (c : Dev nD) (t : Fin cfg0.N) :
    (dats m 0 c).flushed 9 t = ((cfg0.win 9).blk t).view.read (Elt Ideal) (result m c) := by
  obtain ⟨h0, h1⟩ := Blocks.output_at t
  rw [Value.flushed9]
  unfold out0_9
  rw [View.canon_unit_zero zeros]
  simp only [View.ld_unit_zero (S := S4000x1) zeros, View.ld_unit_zero (S := S10x1) zeros, View.ld_unit_zero (S := S1x10) zeros,
    View.ld_unit_zero (S := S10x10) zeros, View.ld_unit_zero (S := S1x1) zeros]
  funext (y : S4000x1.Idx)
  obtain ⟨p, q, rfl⟩ : ∃ (p : Fin 4000) (q : Fin 1), y = ix2 p q := ⟨y 0, y 1, eq_ix2 y⟩
  obtain rfl : q = 0 := Subsingleton.elim _ _
  have hN : cfg0.N = 1000 := N_0
  have hr : t.val * 4000 + p.val < 4000000 := by have := t.isLt; have := p.isLt; omega
  have e : (((cfg0.win 9).blk t).view.emb (ix2 p (0 : Fin 1)) : S4000000x1.Idx)
      = ix2 (⟨t.val * 4000 + p.val, hr⟩ : Fin 4000000) (0 : Fin 1) := by
    funext a
    apply Fin.ext
    match a with
    | ⟨0, _⟩ => show win0_9.index t (0 : Fin 2) * 4000 + 1 * p.val = t.val * 4000 + p.val; rw [h0]; omega
    | ⟨1, _⟩ => show win0_9.index t (1 : Fin 2) * 1 + 1 * 0 = 0; rw [h1]
  show k0_pay1 (k0_pay2 (iblk m c 7 t)) (k0_pay3 (iblk m c 0 t) (iblk m c 1 t) (iblk m c 2 t) (iblk m c 3 t) (iblk m c 4 t)
      (iblk m c 5 t) (iblk m c 6 t)) (iblk m c 8 t) (ix2 p (0 : Fin 1))
    = result m c (((cfg0.win 9).blk t).view.emb (ix2 p (0 : Fin 1)))
  rw [e]
  refine (Block.stored_apply (iblk m c 0 t) (iblk m c 1 t) (iblk m c 2 t) (iblk m c 3 t) (iblk m c 4 t) (iblk m c 5 t)
    (iblk m c 6 t) (iblk m c 7 t) (iblk m c 8 t) p).trans ?_
  show _ = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (⟨t.val * 4000 + p.val, hr⟩ : Fin 4000000) (0 : Fin 1))
  rw [net_ix2]
  have a0 : (fun k : Fin 1 => (iblk m c 0 t : Vec Ideal S4000x1 .f32) (ix2 p k))
      = fun k => (m ((c : Thread nD τ).loc main_arg0) : S4000000x1.Idx → Elt Ideal .f32) (ix2 (⟨t.val * 4000 + p.val, hr⟩ : Fin 4000000) k) :=
    funext fun k => read0 m c t p k _ rfl
  have a1 : (iblk m c 1 t : Vec Ideal S10x1 .f32) = m ((c : Thread nD τ).loc main_arg1) := funext (read1 m c t)
  have a2 : (fun j : Fin 10 => (iblk m c 2 t : Vec Ideal S1x10 .f32) (ix2 (0 : Fin 1) j))
      = fun j => (m ((c : Thread nD τ).loc main_arg2) : S10.Idx → Elt Ideal .f32) (ix1 j) := funext (read2 m c t)
  have a3 : (iblk m c 3 t : Vec Ideal S10x10 .f32) = m ((c : Thread nD τ).loc main_arg3) := funext (read3 m c t)
  have a4 : (fun j : Fin 10 => (iblk m c 4 t : Vec Ideal S1x10 .f32) (ix2 (0 : Fin 1) j))
      = fun j => (m ((c : Thread nD τ).loc main_arg4) : S10.Idx → Elt Ideal .f32) (ix1 j) := funext (read4 m c t)
  have a5 : (iblk m c 5 t : Vec Ideal S10x10 .f32) = m ((c : Thread nD τ).loc main_arg5) := funext (read5 m c t)
  have a6 : (fun j : Fin 10 => (iblk m c 6 t : Vec Ideal S1x10 .f32) (ix2 (0 : Fin 1) j))
      = fun j => (m ((c : Thread nD τ).loc main_arg6) : S10.Idx → Elt Ideal .f32) (ix1 j) := funext (read6 m c t)
  have a7 : (iblk m c 7 t : Vec Ideal S1x10 .f32) = m ((c : Thread nD τ).loc main_arg7) := funext (read7 m c t)
  have a8 : (fun j : Fin 1 => (iblk m c 8 t : Vec Ideal S1x1 .f32) (ix2 (0 : Fin 1) j))
      = fun j => (m ((c : Thread nD τ).loc main_arg8) : S1.Idx → Elt Ideal .f32) (ix1 j) := funext (read8 m c t)
  rw [a0, a1, a2, a3, a4, a5, a6, a7, a8]

/-- An index of the array is in point `t`'s block iff each coordinate is in the block's range on its axis. -/
theorem mem_block (t : Fin cfg0.N) (i : S4000000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v4).slice (win0_9.rect t)).set ↔ _
  rw [View.set_slice_whole, Rect.mem_set_unit]
  exact Iff.rfl

/-- Row `r` lies in the block point `r / 4000` writes back. -/
theorem covered (i : S4000000x1.Idx) : ∃ t : Fin cfg0.N, (cfg0.win 9).flush t = true ∧ i ∈ ((cfg0.win 9).blk t).view.set := by
  have hN : cfg0.N = 1000 := N_0
  have hi0 : (i 0).val < 4000000 := idx2_lt0 i
  have hi1 : (i 1).val < 1 := idx2_lt1 i
  have ht : (i 0).val / 4000 < cfg0.N := by rw [hN]; omega
  obtain ⟨h0, h1⟩ := Blocks.output_at ⟨(i 0).val / 4000, ht⟩
  refine ⟨⟨(i 0).val / 4000, ht⟩, flush0_9 _, ?_⟩
  rw [mem_block]
  intro a
  match a with
  | ⟨0, _⟩ =>
    show win0_9.index ⟨(i 0).val / 4000, ht⟩ (0 : Fin 2) * 4000 ≤ (i 0).val ∧ (i 0).val < win0_9.index ⟨(i 0).val / 4000, ht⟩ (0 : Fin 2) * 4000 + 4000
    rw [h0]; show (i 0).val / 4000 * 4000 ≤ (i 0).val ∧ (i 0).val < (i 0).val / 4000 * 4000 + 4000; omega
  | ⟨1, _⟩ =>
    show win0_9.index ⟨(i 0).val / 4000, ht⟩ (1 : Fin 2) * 1 ≤ (i 1).val ∧ (i 1).val < win0_9.index ⟨(i 0).val / 4000, ht⟩ (1 : Fin 2) * 1 + 1
    rw [h1]; omega

/-- THE ARRAY after the run is the network of the arguments. -/
theorem final (c : Dev nD) : (dats m 0 c).arrAt 9 cfg0.N = result m c :=
  (dats m 0 c).arrAt_eq_of_cover 9 (result m c) (fun t _ => flushed_eq m c t) covered

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Net

end
-- ==== Proof.lean ====
/-
  A four-layer perceptron (1 → 10 → 10 → 10 → 1, rectified after each of the first three layers) on each of
  4,000,000 rows: a kernel that walks the rows in 1000 blocks of 4000 against the plain jnp program.
  On the extended reals the two are one function of the argument arrays, `Mlp.net` (Proof/Mlp.lean):
  the kernel's roundings to bf16 on the way into each product are the identity; its product with the transposed
  weight matrix into a zero accumulator and the reference's dot with the transposed matrix are the same sum
  `∑ q, h q · W[j, q]` in the same order; the bias is added to it on the same side, and the rectifier is the
  maximum with the same zero word on both sides. No step uses a law that could fail at an infinity, so the
  precondition (every input finite) is never opened.
  · Proof/RefNet.lean: the reference's result, read stage by stage, is `Mlp.net` of its arguments.
  · Proof/KernelRow.lean: the block the kernel's body stores is, row by row, `Mlp.row` of its input block.
  · Proof/KernelIndex.lean, Proof/KernelNet.lean: which rows each grid point holds, the biases as the host lays
    them out before the launch, and the 1000 written blocks tiling the array: the kernel's result array is `Mlp.net`.
  The three frames are the generated ones (the reference's is its generated run with the result dropped); the
  kernel's idealization rewrote nothing, so `preserves` is `True`.
-/
import proofs.«157965_j2078764171470_1_alg».proof.Defs
import proofs.«157965_j2078764171470_1_alg».proof.Proof.Gen.Kernel
import proofs.«157965_j2078764171470_1_alg».proof.Proof.Gen.Kernel.Skeleton
import proofs.«157965_j2078764171470_1_alg».proof.Proof.Gen.Kernel.Launch
import proofs.«157965_j2078764171470_1_alg».proof.Proof.Gen.Kernel.Points
import proofs.«157965_j2078764171470_1_alg».proof.Proof.Gen.Kernel.Frame
import proofs.«157965_j2078764171470_1_alg».proof.Proof.Gen.KernelIdeal
import proofs.«157965_j2078764171470_1_alg».proof.Proof.Gen.KernelIdeal.Skeleton
import proofs.«157965_j2078764171470_1_alg».proof.Proof.Gen.KernelIdeal.Launch
import proofs.«157965_j2078764171470_1_alg».proof.Proof.Gen.KernelIdeal.Points
import proofs.«157965_j2078764171470_1_alg».proof.Proof.Gen.KernelIdeal.Frame
import proofs.«157965_j2078764171470_1_alg».proof.Proof.Gen.ReferenceIdeal
import proofs.«157965_j2078764171470_1_alg».proof.Proof.Gen.KernelIdeal.Value
import proofs.«157965_j2078764171470_1_alg».proof.Proof.Gen.ReferenceIdeal.Run
import proofs.«157965_j2078764171470_1_alg».proof.Proof.Gen.ReferenceIdeal.Read
import proofs.«157965_j2078764171470_1_alg».proof.Proof.Gen.Pre_finite_inputs
import proofs.«157965_j2078764171470_1_alg».proof.Proof.RefNet
import proofs.«157965_j2078764171470_1_alg».proof.Proof.KernelNet
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel's result array ends at the network of its arguments
    (Proof/KernelNet.lean) and the reference's at the network of its own (Proof/RefNet.lean): the same array. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v22_eq, Cert.ReferenceIdeal.RefNet.result_eq_net, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
